-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x4096 : Shape := ⟨3, ![4, 512, 4096]⟩
abbrev S11008x4096 : Shape := ⟨2, ![11008, 4096]⟩
abbrev S11008 : Shape := ⟨1, ![11008]⟩
abbrev S_ : Shape := ⟨0, ![]⟩

class Facts : Prop where
  bcast_S_S4x512x4096 : S_.BroadcastsInDim S4x512x4096 (![] : Fin 0 → Fin S4x512x4096.rank)
  reducesTo_S4x512x4096_S_d0_1_2 : S4x512x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x512x4096 .f32) (main_arg1 : IVec S11008x4096 32) (main_arg2 : FVec F S11008 .f32) (main_arg3 : FVec F S11008 .f32) : IVec S_ 1 :=
  let main_v0 : FVec F S4x512x4096 .f32 := Host.absf main_arg0
  let main_cst : FVec F S_ .f32 := constant S_ .f32 0x7F800000#32
  let main_v1 : FVec F S4x512x4096 .f32 := broadcastInDim S4x512x4096 ![] bcast_S_S4x512x4096 main_cst
  let main_v2 : IVec S4x512x4096 1 := cmpf .olt main_v0 main_v1
  let main_c : IVec S_ 1 := constantI S_ 1 1#1
  let main_v3 : IVec S_ 1 := (fun x v => Host.reduce IntOp.andi x v reducesTo_S4x512x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x512x4096 : Shape := ⟨3, ![4, 512, 4096]⟩
abbrev S11008x4096 : Shape := ⟨2, ![11008, 4096]⟩
abbrev S11008 : Shape := ⟨1, ![11008]⟩
abbrev S2048x4096 : Shape := ⟨2, ![2048, 4096]⟩
abbrev S1x11008 : Shape := ⟨2, ![1, 11008]⟩
abbrev S2048x11008 : Shape := ⟨2, ![2048, 11008]⟩
abbrev S256x4096 : Shape := ⟨2, ![256, 4096]⟩
abbrev S1x256 : Shape := ⟨2, ![1, 256]⟩
abbrev S2048x256 : Shape := ⟨2, ![2048, 256]⟩
abbrev S4x512x11008 : Shape := ⟨3, ![4, 512, 11008]⟩

abbrev nBuf : Space → Nat
  | .hbm => 10
  | .vmem => 9
  | .smem => 0
  | _ => 0

abbrev bufTy : (tb : Table) → Fin (tcTables nBuf tb) → BufTy
  | .hbm, ⟨0, _⟩ => ⟨S4x512x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S2048x4096, .f32⟩
  | .hbm, ⟨5, _⟩ => ⟨S2048x4096, .bf16⟩
  | .hbm, ⟨6, _⟩ => ⟨S1x11008, .f32⟩
  | .hbm, ⟨7, _⟩ => ⟨S1x11008, .f32⟩
  | .hbm, ⟨8, _⟩ => ⟨S2048x11008, .f32⟩
  | .hbm, ⟨9, _⟩ => ⟨S4x512x11008, .f32⟩
  | .local _ .vmem, ⟨0, _⟩ => ⟨S2048x4096, .bf16⟩
  | .local _ .vmem, ⟨1, _⟩ => ⟨S256x4096, .i32⟩
  | .local _ .vmem, ⟨2, _⟩ => ⟨S256x4096, .i32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S2048x256, .f32⟩
  | .local _ .vmem, ⟨8, _⟩ => ⟨S2048x256, .f32⟩
  | _, _ => ⟨S4x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x512x4096_S2048x4096 : S4x512x4096.ShapeCasts S2048x4096
  bitsLt_bf16_f32 : FTy.bits .bf16 < FTy.bits .f32
  shapeCasts_S11008_S1x11008 : S11008.ShapeCasts S1x11008
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S2048x11008_S4x512x11008 : S2048x11008.ShapeCasts S4x512x11008
  dot_S2048x4096_S256x4096_S2048x256_1_1_0_0_n_n_wf : DotDims.WF S2048x4096 S256x4096 S2048x256 [1] [1] [0] [0] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S2048x4096.size a
  hwx0_0 : ∀ i : grid0.Coords, EltTy.bits .bf16 = 32 ∨ (Rect.block (s := S2048x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x11008.size a
  hwx0_4 : ∀ i : grid0.Coords, EltTy.bits .f32 = 32 ∨ (Rect.block (s := S2048x11008) S2048x256.size (cc0_transform_4 i) (hinb0_4 i)).WholeWords (EltTy.packing .f32)

variable [Facts₀]

def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win0_0 : Pipeline.Window sig grid0 :=
  Pipeline.Window.ofSpec (Memref.whole main_v1) S2048x4096.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512x4096 : Shape := ⟨3, ![4, 512, 4096]⟩
abbrev S11008x4096 : Shape := ⟨2, ![11008, 4096]⟩
abbrev S11008 : Shape := ⟨1, ![11008]⟩
abbrev S11008x1 : Shape := ⟨2, ![11008, 1]⟩
abbrev S4x512x11008 : Shape := ⟨3, ![4, 512, 11008]⟩
abbrev S1x1x11008 : Shape := ⟨3, ![1, 1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S4x512x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008x4096, .f32⟩
  | .hbm, ⟨5, _⟩ => ⟨S11008x1, .f32⟩
  | .hbm, ⟨6, _⟩ => ⟨S11008x4096, .f32⟩
  | .hbm, ⟨7, _⟩ => ⟨S11008x4096, .f32⟩
  | .hbm, ⟨8, _⟩ => ⟨S4x512x11008, .f32⟩
  | .hbm, ⟨9, _⟩ => ⟨S1x1x11008, .f32⟩
  | .hbm, ⟨10, _⟩ => ⟨S4x512x11008, .f32⟩
  | .hbm, ⟨11, _⟩ => ⟨S4x512x11008, .f32⟩
  | _, _ => ⟨S4x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x512x11008_0_1_2 : S1x1x11008.BroadcastsInDim S4x512x11008 (![0, 1, 2] : Fin 3 → Fin S4x512x11008.rank)
  dot_S4x512x4096_S11008x4096_S4x512x11008_2_1_01_0_n_n_wf : DotDims.WF S4x512x4096 S11008x4096 S4x512x11008 [2] [1] [0, 1] [0] [] []

variable [Facts₀]

def dot_S4x512x4096_S11008x4096_S4x512x11008_2_1_01_0_n_n : DotDims S4x512x4096 S11008x4096 S4x512x11008 where
  lhsContracting := [2]
  rhsContracting := [1]
  lhsNonContracting := [0, 1]
  rhsNonContracting := [0]
  lhsBatch := []
  rhsBatch := []
  wf := dot_S4x512x4096_S11008x4096_S4x512x11008_2_1_01_0_n_n_wf

class Facts : Prop extends Facts₀ where

variable [Facts]
-- ==== Proof.BlockValue.lean ====
/-
  One output tile of the kernel, element by element. The body multiplies the 2048 x 4096 activation block by the
  transpose of a 256 x 4096 tile of integer weights (converted exactly to floats), into a zero accumulator, then scales
  column q by the q-th entry of the scale row and adds the q-th entry of the bias row. At the extended reals the matrix
  product is a plain sum over the 4096 contracted positions, so element (r, q) of the tile is

      (∑ k, x (r, k) * w (q, k)) * scale (0, q) + bias (0, q).
-/
import proofs.«152385_j69956427317869_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Block

open Cert.KernelIdeal Cert.KernelIdeal.Gen

/-- The matrix product's dimension numbers: the output's row names the activations' row, -/
theorem lhs_row (i : S2048x256.Idx) (p : dot_S2048x4096_S256x4096_S2048x256_1_1_0_0_n_n.contr.Idx) :
    (dot_S2048x4096_S256x4096_S2048x256_1_1_0_0_n_n.lhsIdx i p 0).val = (i 0).val := by
  unfold DotDims.lhsIdx
  rw [dif_neg (show ¬(0 : Fin S2048x4096.rank) ∈ dot_S2048x4096_S256x4096_S2048x256_1_1_0_0_n_n.lhsBatch by decide),
    dif_pos (show (0 : Fin S2048x4096.rank) ∈ dot_S2048x4096_S256x4096_S2048x256_1_1_0_0_n_n.lhsNonContracting by decide)]
  rfl
/-- the contracted position is the activations' column, -/
theorem lhs_col (i : S2048x256.Idx) (p : dot_S2048x4096_S256x4096_S2048x256_1_1_0_0_n_n.contr.Idx) :
    (dot_S2048x4096_S256x4096_S2048x256_1_1_0_0_n_n.lhsIdx i p 1).val = (p ⟨0, by decide⟩).val :=
  dot_S2048x4096_S256x4096_S2048x256_1_1_0_0_n_n.lhsIdx_val_of_single rfl i p
/-- the output's column names the weights' row, -/
theorem rhs_row (i : S2048x256.Idx) (p : dot_S2048x4096_S256x4096_S2048x256_1_1_0_0_n_n.contr.Idx) :
    (dot_S2048x4096_S256x4096_S2048x256_1_1_0_0_n_n.rhsIdx i p 0).val = (i 1).val := by
  unfold DotDims.rhsIdx
  rw [dif_neg (show ¬(0 : Fin S256x4096.rank) ∈ dot_S2048x4096_S256x4096_S2048x256_1_1_0_0_n_n.rhsBatch by decide),
    dif_pos (show (0 : Fin S256x4096.rank) ∈ dot_S2048x4096_S256x4096_S2048x256_1_1_0_0_n_n.rhsNonContracting by decide)]
  rfl
/-- and the contracted position is the weights' column too. -/
theorem rhs_col (i : S2048x256.Idx) (p : dot_S2048x4096_S256x4096_S2048x256_1_1_0_0_n_n.contr.Idx) :
    (dot_S2048x4096_S256x4096_S2048x256_1_1_0_0_n_n.rhsIdx i p 1).val = (p ⟨0, by decide⟩).val :=
  dot_S2048x4096_S256x4096_S2048x256_1_1_0_0_n_n.rhsIdx_val_of_single rfl i p

/-- The tile's matrix product at (r, q): the contraction runs over the second axis of both operands, so it pairs row r
    of the activations with row q of the weights. -/
theorem matmul_tile_apply (a : FVec Ideal S2048x4096 .bf16) (b : FVec Ideal S256x4096 .bf16) (r : Fin 2048) (q : Fin 256) :
    matmul dot_S2048x4096_S256x4096_S2048x256_1_1_0_0_n_n none a b (constant S2048x256 .f32 0x00000000#32) (ix2 r q)
      = ∑ k : Fin 4096, a (ix2 r k) * b (ix2 q k) := by
  simp only [matmul]
  rw [Ideal.matmul_constant_zero_apply,
    ← Equiv.sum_comp (contrEquiv1 dot_S2048x4096_S256x4096_S2048x256_1_1_0_0_n_n 4096 rfl rfl).symm]
  refine Finset.sum_congr rfl fun k _ => ?_
  have hk := contrEquiv1_symm_val dot_S2048x4096_S256x4096_S2048x256_1_1_0_0_n_n 4096 rfl rfl k
  have el : dot_S2048x4096_S256x4096_S2048x256_1_1_0_0_n_n.lhsIdx (ix2 r q)
      ((contrEquiv1 dot_S2048x4096_S256x4096_S2048x256_1_1_0_0_n_n 4096 rfl rfl).symm k) = ix2 r k :=
    funext fun ax => Fin.ext (by
      match ax with
      | ⟨0, _⟩ => exact lhs_row _ _
      | ⟨1, _⟩ => exact (lhs_col _ _).trans hk)
  have er : dot_S2048x4096_S256x4096_S2048x256_1_1_0_0_n_n.rhsIdx (ix2 r q)
      ((contrEquiv1 dot_S2048x4096_S256x4096_S2048x256_1_1_0_0_n_n 4096 rfl rfl).symm k) = ix2 q k :=
    funext fun ax => Fin.ext (by
      match ax with
      | ⟨0, _⟩ => exact rhs_row _ _
      | ⟨1, _⟩ => exact (rhs_col _ _).trans hk)
  rw [el, er]

/-- The stored tile at (r, q), from the four loaded blocks: the dot product of activation row r with weight row q
    (each weight the integer it encodes, read signed), times the scale of column q, plus the bias of column q. -/
theorem tile_apply (x : Vec Ideal S2048x4096 .bf16) (w : Vec Ideal S256x4096 .i32) (sc bi : Vec Ideal S1x256 .f32)
    (r : Fin 2048) (q : Fin 256) :
    k0_pay1 (F := Ideal) x w sc bi (ix2 r q)
      = (∑ k : Fin 4096, x (ix2 r k) * (((w (ix2 q k)).toInt : ℝ) : EReal)) * sc (ix2 (0 : Fin 1) q) + bi (ix2 (0 : Fin 1) q) := by
  unfold k0_pay1
  simp only [shapeCast_self]
  rw [addf_apply, mulf_apply, broadcastTo_1b_ab_apply, broadcastTo_1b_ab_apply, matmul_tile_apply]
  rfl

end Cert.KernelIdeal.Block

end
-- ==== Proof.RegionArray.lean ====
/-
  The array the kernel's region leaves. The grid has 43 points; point t multiplies the whole 2048 x 4096 activation
  array by weight rows 256 t .. 256 t + 255 and writes columns 256 t .. 256 t + 255 of the 2048 x 11008 output, scaled
  and biased by the same columns of the scale and bias rows. So every output tile is a block of ONE function of the
  arrays the region finds, element (r, o) being

      (∑ k, x (r, k) * w (o, k)) * scale (0, o) + bias (0, o),

  and since the 43 column tiles cover the output array, the array ends holding that function.
-/
import proofs.«152385_j69956427317869_2_alg».proof.Proof.Gen.KernelIdeal.Frame
import proofs.«152385_j69956427317869_2_alg».proof.Proof.BlockValue

noncomputable section

open Idealize.ShloMosaic Idealize.ShloMosaic.TcCoe Idealize.SL.Sem Idealize.ShloMosaic.ValueIdx
open Idealize.ShloMosaic.Pipeline (Dat)
open scoped BigOperators

namespace Cert.KernelIdeal.Region

open Cert.KernelIdeal Cert.KernelIdeal.Gen Cert.KernelIdeal.Block

/-- Element (r, o) of the region's result, from the arrays the region reads. -/
def outAt (x : S2048x4096.Idx → EReal) (w : S11008x4096.Idx → BitVec 32) (sc bi : S1x11008.Idx → EReal)
    (r : Fin 2048) (o : Fin 11008) : EReal :=
  (∑ k : Fin 4096, x (ix2 r k) * (((w (ix2 o k)).toInt : ℝ) : EReal)) * sc (ix2 (0 : Fin 1) o) + bi (ix2 (0 : Fin 1) o)

/-- The region's whole result array. -/
def out (x : S2048x4096.Idx → EReal) (w : S11008x4096.Idx → BitVec 32) (sc bi : S1x11008.Idx → EReal) :
    S2048x11008.Idx → EReal :=
  fun i => outAt x w sc bi (i 0) (i 1)

theorem out_apply (x : S2048x4096.Idx → EReal) (w : S11008x4096.Idx → BitVec 32) (sc bi : S1x11008.Idx → EReal)
    (r : Fin 2048) (o : Fin 11008) : out x w sc bi (ix2 r o) = outAt x w sc bi r o := rfl

/-- A stored tile whose loaded blocks are the whole activations, weight rows 256 J + q, and columns 256 J + q of the
    scale and bias rows, is columns 256 J + q of the result. -/
theorem tile_is_block (x : Vec Ideal S2048x4096 .bf16) (w : Vec Ideal S256x4096 .i32) (sc bi : Vec Ideal S1x256 .f32)
    (X : S2048x4096.Idx → EReal) (W : S11008x4096.Idx → BitVec 32) (SC BI : S1x11008.Idx → EReal)
    (J : Nat) (hJ : J < 43)
    (hx : ∀ (r : Fin 2048) (k : Fin 4096), x (ix2 r k) = X (ix2 r k))
    (hw : ∀ (q : Fin 256) (k : Fin 4096), w (ix2 q k) = W (ix2 (⟨J * 256 + q.val, by omega⟩ : Fin 11008) k))
    (hsc : ∀ q : Fin 256, sc (ix2 (0 : Fin 1) q) = SC (ix2 (0 : Fin 1) (⟨J * 256 + q.val, by omega⟩ : Fin 11008)))
    (hbi : ∀ q : Fin 256, bi (ix2 (0 : Fin 1) q) = BI (ix2 (0 : Fin 1) (⟨J * 256 + q.val, by omega⟩ : Fin 11008)))
    (r : Fin 2048) (q : Fin 256) :
    k0_pay1 (F := Ideal) x w sc bi (ix2 r q) = outAt X W SC BI r ⟨J * 256 + q.val, by omega⟩ := by
  rw [tile_apply, hsc, hbi]
  unfold outAt
  simp only [hx, hw]

variable (m : (ℓ : Loc nD τ sig) → Buf (Elt Ideal) ℓ)

theorem zero_offsets : (![0, 0] : Fin 2 → Nat) = fun _ => 0 := funext fun a => by fin_cases a <;> rfl

/-- Where each window's block sits at point t, decided over the 43 points: the activations' block is the whole array;
    the weights' block is row block t; the scale's, the bias's and the output's are column block t. -/
theorem block_indices : ∀ t : Fin cfg0.N,
    win0_0.index t (0 : Fin 2) = 0 ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) = 0 ∧ win0_4.index t (1 : Fin 2) < 43 :=
  (by decide +kernel : ∀ t : Fin grid0.N, _)

/-- Every column block of the output is some point's. -/
theorem block_onto : ∀ q : Fin 43, ∃ t : Fin cfg0.N, win0_4.index t = ![0, q.val] :=
  (by decide +kernel : ∀ q : Fin 43, ∃ t : Fin grid0.N, win0_4.index t = ![0, q.val])

/-- WHAT POINT t WRITES BACK is block t of the one result function of the arrays as the region finds them. -/
theorem flushed_eq (c : Dev nD) (t : Fin cfg0.N) :
    (dats m 0 c).flushed 4 t = ((cfg0.win 4).blk t).view.read (Elt Ideal)
      (out (V m c main_v1) (V m c main_arg1) (V m c main_v2) (V m c main_v3)) := by
  show (cfg0.win 4).cut (grid0.coords t) ((dats m 0 c).after 4 t) = _
  rw [after0_4]
  unfold out0_4
  rw [View.canon_unit_zero zero_offsets]
  simp only [View.ld_unit_zero (S := S2048x4096) zero_offsets, View.ld_unit_zero (S := S256x4096) zero_offsets,
    View.ld_unit_zero (S := S1x256) zero_offsets]
  obtain ⟨e00, e01, e10, e11, e20, e21, e30, e31, e40, e41⟩ := block_indices t
  funext j
  obtain ⟨r, q, rfl⟩ : ∃ (r : Fin 2048) (q : Fin 256), j = ix2 r q := ⟨j 0, j 1, eq_ix2 j⟩
  show k0_pay1 (F := Ideal) (iblk m c 0 t) (iblk m c 1 t) (iblk m c 2 t) (iblk m c 3 t) (ix2 r q)
    = out (V m c main_v1) (V m c main_arg1) (V m c main_v2) (V m c main_v3) (((cfg0.win 4).blk t).view.emb (ix2 r q))
  refine (tile_is_block (iblk m c 0 t) (iblk m c 1 t) (iblk m c 2 t) (iblk m c 3 t)
    (V m c main_v1) (V m c main_arg1) (V m c main_v2) (V m c main_v3) (win0_4.index t (1 : Fin 2)) e41 ?_ ?_ ?_ ?_ r q).trans ?_
  · intro r k
    show V m c main_v1 (((cfg0.win 0).blk t).view.emb (ix2 r k)) = V m c main_v1 (ix2 r k)
    refine congrArg _ (funext fun a => Fin.ext ?_)
    match a with
    | ⟨0, _⟩ => show win0_0.index t (0 : Fin 2) * 2048 + 1 * r.val = r.val; omega
    | ⟨1, _⟩ => show win0_0.index t (1 : Fin 2) * 4096 + 1 * k.val = k.val; omega
  · intro q k
    show V m c main_arg1 (((cfg0.win 1).blk t).view.emb (ix2 q k)) = V m c main_arg1 (ix2 _ k)
    refine congrArg _ (funext fun a => Fin.ext ?_)
    match a with
    | ⟨0, _⟩ => show win0_1.index t (0 : Fin 2) * 256 + 1 * q.val = win0_4.index t (1 : Fin 2) * 256 + q.val; omega
    | ⟨1, _⟩ => show win0_1.index t (1 : Fin 2) * 4096 + 1 * k.val = k.val; omega
  · intro q
    show V m c main_v2 (((cfg0.win 2).blk t).view.emb (ix2 (0 : Fin 1) q)) = V m c main_v2 (ix2 (0 : Fin 1) _)
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * q.val = win0_4.index t (1 : Fin 2) * 256 + q.val; omega
  · intro q
    show V m c main_v3 (((cfg0.win 3).blk t).view.emb (ix2 (0 : Fin 1) q)) = V m c main_v3 (ix2 (0 : Fin 1) _)
    refine congrArg _ (funext fun a => Fin.ext ?_)
    match a with
    | ⟨0, _⟩ => show win0_3.index t (0 : Fin 2) * 1 + 1 * 0 = 0; omega
    | ⟨1, _⟩ => show win0_3.index t (1 : Fin 2) * 256 + 1 * q.val = win0_4.index t (1 : Fin 2) * 256 + q.val; omega
  · rw [← out_apply]
    refine congrArg _ (funext fun a => Fin.ext ?_)
    match a with
    | ⟨0, _⟩ => show r.val = win0_4.index t (0 : Fin 2) * 2048 + 1 * r.val; omega
    | ⟨1, _⟩ => show win0_4.index t (1 : Fin 2) * 256 + q.val = win0_4.index t (1 : Fin 2) * 256 + 1 * q.val; omega

/-- An index of the output array is in point t's block iff each coordinate is in the block's range on its axis. -/
theorem mem_block (t : Fin cfg0.N) (i : S2048x11008.Idx) :
    i ∈ ((cfg0.win 4).blk t).view.set ↔ ∀ a : Fin 2, win0_4.index t a * S2048x256.size a ≤ (i a).val
      ∧ (i a).val < win0_4.index t a * S2048x256.size a + S2048x256.size a := by
  show i ∈ ((View.whole main_v4).slice (win0_4.rect t)).set ↔ _
  rw [View.set_slice_whole, Rect.mem_set_unit]
  exact Iff.rfl

/-- The 43 column tiles cover the output array: column o lies in the tile of point o / 256. -/
theorem covered (i : S2048x11008.Idx) :
    ∃ t : Fin cfg0.N, (cfg0.win 4).flush t = true ∧ i ∈ ((cfg0.win 4).blk t).view.set := by
  have hi0 : (i 0).val < 2048 := (i 0).isLt
  have hi1 : (i 1).val < 11008 := (i 1).isLt
  obtain ⟨t, ht⟩ := block_onto ⟨(i 1).val / 256, by omega⟩
  have q0 : win0_4.index t (0 : Fin 2) = 0 := congrFun ht 0
  have q1 : win0_4.index t (1 : Fin 2) = (i 1).val / 256 := congrFun ht 1
  refine ⟨t, flush0_4 t, ?_⟩
  rw [mem_block]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 256 ≤ (i 1).val ∧ (i 1).val < win0_4.index t (1 : Fin 2) * 256 + 256; omega

/-- THE OUTPUT ARRAY after the region: the one result function of the arrays the region found. -/
theorem final (c : Dev nD) :
    (dats m 0 c).arrAt 4 cfg0.N = out (V m c main_v1) (V m c main_arg1) (V m c main_v2) (V m c main_v3) :=
  (dats m 0 c).arrAt_eq_of_cover 4 _ (fun t _ => flushed_eq m c t) covered

end Cert.KernelIdeal.Region

end
-- ==== Proof.Spec.lean ====
/-
  The int8 linear layer as one function of its arguments: activations x [4, 512, 4096], integer weights w [11008, 4096]
  (each read as the signed integer it encodes), per-output-channel scales and biases [11008]. Element (b, s, o) is

      (∑ k, x (b, s, k) * w (o, k)) * scale (o) + bias (o)

  over the extended reals: the form in which the kernel computes it, with the scale applied once per output element.
-/
import Idealize.ShloMosaic.Lib.ValueIdx

noncomputable section

open Idealize.ShloMosaic Idealize.ShloMosaic.ValueIdx
open scoped BigOperators

namespace Cert.Spec

/-- Element (b, s, o) of the layer's result. -/
def resultAt (x : (⟨3, ![4, 512, 4096]⟩ : Shape).Idx → EReal) (w : (⟨2, ![11008, 4096]⟩ : Shape).Idx → BitVec 32)
    (sc bi : (⟨1, ![11008]⟩ : Shape).Idx → EReal) (b : Fin 4) (s : Fin 512) (o : Fin 11008) : EReal :=
  (∑ k : Fin 4096, x (ix3 b s k) * (((w (ix2 o k)).toInt : ℝ) : EReal)) * sc (ix1 o) + bi (ix1 o)

/-- The layer's whole result. -/
def result (x : (⟨3, ![4, 512, 4096]⟩ : Shape).Idx → EReal) (w : (⟨2, ![11008, 4096]⟩ : Shape).Idx → BitVec 32)
    (sc bi : (⟨1, ![11008]⟩ : Shape).Idx → EReal) : (⟨3, ![4, 512, 11008]⟩ : Shape).Idx → EReal :=
  fun i => resultAt x w sc bi (i 0) (i 1) (i 2)

theorem result_apply (x : (⟨3, ![4, 512, 4096]⟩ : Shape).Idx → EReal) (w : (⟨2, ![11008, 4096]⟩ : Shape).Idx → BitVec 32)
    (sc bi : (⟨1, ![11008]⟩ : Shape).Idx → EReal) (b : Fin 4) (s : Fin 512) (o : Fin 11008) :
    result x w sc bi (ix3 b s o) = resultAt x w sc bi b s o := rfl

end Cert.Spec

end
-- ==== Proof.WholeRun.lean ====
/-
  The kernel's whole program, read as one function of its four arguments. Before the region the host flattens the
  activations [4, 512, 4096] to [2048, 4096] (row 512 b + s is position (b, s)) and narrows them to the 16-bit format,
  which at the extended reals changes nothing, and views the scale and the bias [11008] as rows [1, 11008]; after the
  region it unflattens the [2048, 11008] result to [4, 512, 11008]. So element (b, s, o) of the program's result is

      (∑ k, x (b, s, k) * w (o, k)) * scale (o) + bias (o).
-/
import proofs.«152385_j69956427317869_2_alg».proof.Proof.RegionArray
import proofs.«152385_j69956427317869_2_alg».proof.Proof.Spec
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)
open scoped BigOperators

namespace Cert.KernelIdeal.Whole

open Cert.KernelIdeal Cert.KernelIdeal.Gen Idealize.ShloMosaic.StableHlo Cert.Spec

variable (m : (ℓ : Loc nD τ sig) → Buf (Elt Ideal) ℓ) (ρ : Dev nD → PrngReg)

/-! ## The arrays the region finds -/

/-- The activations as the region finds them: flattened, then narrowed. -/
theorem entry_x (c : Dev nD) :
    V m c main_v1 = truncf (F := Ideal) .bf16
      (shapeCast S2048x4096 (m ((c : Thread nD τ).loc main_arg0)) shapeCasts_S4x512x4096_S2048x4096) bitsLt_bf16_f32 := by
  show StableHlo.after hostOps0 (fun b => m (c, b)) (Proc.devRef .tc main_v1) = _
  after_results
  rfl

/-- The scale as the region finds it: one row. -/
theorem entry_scale (c : Dev nD) :
    V m c main_v2 = shapeCast S1x11008 (m ((c : Thread nD τ).loc main_arg2)) shapeCasts_S11008_S1x11008 := by
  show StableHlo.after hostOps0 (fun b => m (c, b)) (Proc.devRef .tc main_v2) = _
  after_results
  rfl

/-- The bias as the region finds it: one row. -/
theorem entry_bias (c : Dev nD) :
    V m c main_v3 = shapeCast S1x11008 (m ((c : Thread nD τ).loc main_arg3)) shapeCasts_S11008_S1x11008 := by
  show StableHlo.after hostOps0 (fun b => m (c, b)) (Proc.devRef .tc main_v3) = _
  after_results
  rfl

/-- Row 512 b + s of the flattened activations is position (b, s). -/
theorem entry_x_apply (c : Dev nD) (b : Fin 4) (s : Fin 512) (k : Fin 4096) :
    V m c main_v1 (ix2 (⟨b.val * 512 + s.val, by omega⟩ : Fin 2048) k) = m ((c : Thread nD τ).loc main_arg0) (ix3 b s k) := by
  rw [entry_x, truncf_apply]
  exact shapeCast_apply _ _ _ _ (by
    show (S4x512x4096.rowMajor (ix3 b s k)).val
      = (S2048x4096.rowMajor (ix2 (⟨b.val * 512 + s.val, by omega⟩ : Fin 2048) k)).val
    rw [Shape.rowMajor_val_three, Shape.rowMajor_val_two]
    rfl)

theorem entry_scale_apply (c : Dev nD) (o : Fin 11008) :
    V m c main_v2 (ix2 (0 : Fin 1) o) = m ((c : Thread nD τ).loc main_arg2) (ix1 o) := by
  rw [entry_scale]
  exact shapeCast_a_1a_apply _ _ _ _

theorem entry_bias_apply (c : Dev nD) (o : Fin 11008) :
    V m c main_v3 (ix2 (0 : Fin 1) o) = m ((c : Thread nD τ).loc main_arg3) (ix1 o) := by
  rw [entry_bias]
  exact shapeCast_a_1a_apply _ _ _ _

/-- The region's result at row 512 b + s, column o, in the program's arguments. -/
theorem region_out_apply (c : Dev nD) (b : Fin 4) (s : Fin 512) (o : Fin 11008) :
    Region.out (V m c main_v1) (V m c main_arg1) (V m c main_v2) (V m c main_v3)
        (ix2 (⟨b.val * 512 + s.val, by omega⟩ : Fin 2048) o)
      = resultAt (m ((c : Thread nD τ).loc main_arg0)) (m ((c : Thread nD τ).loc main_arg1))
          (m ((c : Thread nD τ).loc main_arg2)) (m ((c : Thread nD τ).loc main_arg3)) b s o := by
  rw [Region.out_apply]
  unfold Region.outAt Spec.resultAt
  rw [entry_scale_apply, entry_bias_apply, V_main_arg1]
  refine congrArg (fun z => z * m ((c : Thread nD τ).loc main_arg2) (ix1 o) + m ((c : Thread nD τ).loc main_arg3) (ix1 o))
    (Finset.sum_congr rfl fun k _ => ?_)
  rw [entry_x_apply]

/-! ## The result the program returns -/

/-- After the region the host unflattens the region's output array. -/
theorem exit_eq (c : Dev nD) :
    Pipeline.afterTail₀ cfgs (dats m) 0 (V0 m) [hostOps1] c main_v5
      = shapeCast S4x512x11008 ((dats m 0 c).arrAt 4 cfg0.N) shapeCasts_S2048x11008_S4x512x11008 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = (dats m 0 c).arrAt 4 cfg0.N :=
    Pipeline.withArrays_arr spec0 launch0.win.arr_inj c _ _ 4
  rw [e]
  rfl

/-- The program's result is `result` of its arguments. -/
theorem exit_result (c : Dev nD) :
    Pipeline.afterTail₀ cfgs (dats m) 0 (V0 m) [hostOps1] c main_v5
      = result (m ((c : Thread nD τ).loc main_arg0)) (m ((c : Thread nD τ).loc main_arg1))
          (m ((c : Thread nD τ).loc main_arg2)) (m ((c : Thread nD τ).loc main_arg3)) := by
  rw [exit_eq, Region.final]
  funext i
  obtain ⟨b, s, o, rfl⟩ : ∃ (b : Fin 4) (s : Fin 512) (o : Fin 11008), i = ix3 b s o := ⟨i 0, i 1, i 2, eq_ix3 i⟩
  refine (shapeCast_apply _ _ (ix3 b s o) (ix2 (⟨b.val * 512 + s.val, by omega⟩ : Fin 2048) o) (by
    show (S2048x11008.rowMajor (ix2 (⟨b.val * 512 + s.val, by omega⟩ : Fin 2048) o)).val
      = (S4x512x11008.rowMajor (ix3 b s o)).val
    rw [Shape.rowMajor_val_three, Shape.rowMajor_val_two]
    rfl)).trans ?_
  exact region_out_apply m c b s o

/-! ## The run -/

/-- Every weakly fair execution of the program terminates with the result array at `result` of the arguments and the
    arguments unchanged. -/
theorem run : θ_run defs (onTc (τ := τ) (main (F := Ideal))) ⟨m, fun _ => 0, ρ⟩ (fun r => ∀ c : Dev nD,
      r.2.mem ((c.tc : Thread nD τ).loc main_v5)
        = result (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (exit_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference, element by element. It dequantizes the weights first, w (o, k) * scale (o), contracts the activations
  against them over the 4096 input channels, and adds the bias: element (b, s, o) of its result is

      (∑ k, x (b, s, k) * (w (o, k) * scale (o))) + bias (o),

  each weight the integer it encodes, read signed. Every operation of the reference is read at an index in turn:
  the two broadcasts of the scale and the two of the bias only rename coordinates.
-/
import proofs.«152385_j69956427317869_2_alg».proof.Proof.Gen.ReferenceIdeal.Read
import Idealize.ShloMosaic.Lib.ValueIdx

noncomputable section

open Idealize.ShloMosaic Idealize.ShloMosaic.ValueIdx
open scoped BigOperators

namespace Cert.ReferenceIdeal.RefValue

open Cert.ReferenceIdeal Cert.ReferenceIdeal.Read

/-- The dequantized weight at (o, k): the integer times its output channel's scale. -/
theorem dequant_apply (w : (⟨S11008x4096, .i32⟩ : BufTy).Contents (Elt Ideal)) (sc : (⟨S11008, .f32⟩ : BufTy).Contents (Elt Ideal))
    (o : Fin 11008) (k : Fin 4096) :
    val_main_v3 (F := Ideal) w sc (ix2 o k) = (((w (ix2 o k)).toInt : ℝ) : EReal) * sc (ix1 o) := by
  rw [val_main_v3_apply, val_main_v0_apply, val_main_v2_apply, val_main_v1_apply]
  have e : idx_main_v1 (idx_main_v2 (ix2 o k)) = ix1 o := funext fun a => Fin.ext (by match a with | ⟨0, _⟩ => rfl)
  rw [e]
  rfl

/-- The broadcast bias at (b, s, o) is the bias of output channel o. -/
theorem bias_apply (bi : (⟨S11008, .f32⟩ : BufTy).Contents (Elt Ideal)) (b : Fin 4) (s : Fin 512) (o : Fin 11008) :
    val_main_v6 (F := Ideal) bi (ix3 b s o) = bi (ix1 o) := by
  rw [val_main_v6_apply, val_main_v5_apply]
  exact congrArg bi (funext fun a => Fin.ext (by match a with | ⟨0, _⟩ => rfl))

/-- The reference's result at (b, s, o). -/
theorem result_apply (x : (⟨S4x512x4096, .f32⟩ : BufTy).Contents (Elt Ideal)) (w : (⟨S11008x4096, .i32⟩ : BufTy).Contents (Elt Ideal))
    (sc bi : (⟨S11008, .f32⟩ : BufTy).Contents (Elt Ideal)) (b : Fin 4) (s : Fin 512) (o : Fin 11008) :
    val_main_v7 (F := Ideal) x w sc bi (ix3 b s o)
      = (∑ k : Fin 4096, x (ix3 b s k) * ((((w (ix2 o k)).toInt : ℝ) : EReal) * sc (ix1 o))) + bi (ix1 o) := by
  rw [val_main_v7_apply, val_main_v4_apply, bias_apply]
  refine congrArg (· + bi (ix1 o)) (Finset.sum_congr rfl fun k _ => ?_)
  have el : lidx_main_v4 (ix3 b s o) k = ix3 b s k :=
    funext fun a => Fin.ext (by match a with | ⟨0, _⟩ => rfl | ⟨1, _⟩ => rfl | ⟨2, _⟩ => rfl)
  have er : ridx_main_v4 (ix3 b s o) k = ix2 o k :=
    funext fun a => Fin.ext (by match a with | ⟨0, _⟩ => rfl | ⟨1, _⟩ => rfl)
  rw [el, er, dequant_apply]

end Cert.ReferenceIdeal.RefValue

end
-- ==== Proof.ScaleLaw.lean ====
/-
  A per-channel scale leaves a dot product: for real numbers x_k, w_k and a real scale s,

      (∑ k, x_k * w_k) * s = ∑ k, x_k * (w_k * s).

  On the extended reals the step needs its terms finite: a product with an infinite factor does not distribute
  over a sum whose terms have both signs, and the sum of +∞ and -∞ is not a difference of reals. So the law is stated
  for extended reals known to be real numbers, carried down to ℝ, and proved there by distributivity.
-/
import Idealize.ShloMosaic.PureOps.Ideal

open scoped BigOperators

namespace Cert.ScaleLaw

/-- The embedding of the reals in the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The scale taken out of the dot product: when every x_k and the scale s are real numbers (the w_k are, being
    integers read exactly), scaling the sum of the products x_k * w_k is summing the products with the scaled weights. -/
theorem sum_mul_scale {ι : Type*} [Fintype ι] (x : ι → EReal) (w : ι → ℝ) (s : EReal)
    (hx : ∀ k, ∃ r : ℝ, x k = (r : EReal)) (hs : ∃ r : ℝ, s = (r : EReal)) :
    (∑ k, x k * (w k : EReal)) * s = ∑ k, x k * ((w k : EReal) * s) := by
  obtain ⟨sr, rfl⟩ := hs
  choose xr hxr using hx
  obtain rfl : x = fun k => (xr k : EReal) := funext hxr
  simp only [← EReal.coe_mul]
  rw [← coe_sum, ← coe_sum, ← EReal.coe_mul, Finset.sum_mul]
  exact congrArg _ (Finset.sum_congr rfl fun k _ => mul_assoc _ _ _)

end Cert.ScaleLaw
-- ==== Proof.Bridge.lean ====
/-
  The two programs compute one function. The reference scales each weight before the contraction,
  ∑ k, x (b, s, k) * (w (o, k) * scale (o)); the kernel scales the contraction, (∑ k, x (b, s, k) * w (o, k)) * scale (o).
  With the activations and the scale real numbers (the precondition) the scale leaves the sum, and the bias is added to
  both alike.
-/
import proofs.«152385_j69956427317869_2_alg».proof.Proof.RefValue
import proofs.«152385_j69956427317869_2_alg».proof.Proof.ScaleLaw
import proofs.«152385_j69956427317869_2_alg».proof.Proof.Spec

noncomputable section

open Idealize.ShloMosaic Idealize.ShloMosaic.ValueIdx
open scoped BigOperators

namespace Cert.Bridge

open Cert.ReferenceIdeal

/-- The reference's result is the layer's function, when every activation and every scale is a real number. -/
theorem reference_eq (x : (⟨S4x512x4096, .f32⟩ : BufTy).Contents (Elt Ideal)) (w : (⟨S11008x4096, .i32⟩ : BufTy).Contents (Elt Ideal))
    (sc bi : (⟨S11008, .f32⟩ : BufTy).Contents (Elt Ideal))
    (hx : ∀ i, ∃ r : ℝ, x i = (r : EReal)) (hsc : ∀ i, ∃ r : ℝ, sc i = (r : EReal)) :
    Read.val_main_v7 (F := Ideal) x w sc bi = Cert.Spec.result x w sc bi := by
  funext i
  obtain ⟨b, s, o, rfl⟩ : ∃ (b : Fin 4) (s : Fin 512) (o : Fin 11008), i = ix3 b s o := ⟨i 0, i 1, i 2, eq_ix3 i⟩
  rw [RefValue.result_apply, Cert.Spec.result_apply]
  unfold Cert.Spec.resultAt
  rw [Cert.ScaleLaw.sum_mul_scale (fun k : Fin 4096 => x (ix3 b s k)) (fun k : Fin 4096 => ((w (ix2 o k)).toInt : ℝ)) (sc (ix1 o))
    (fun k => hx _) (hsc _)]

end Cert.Bridge

end
-- ==== Proof.FiniteInputs.lean ====
/-
  What the precondition gives. It is the conjunction of three tests, one per float argument: every entry's absolute
  value is below +∞. On the extended reals |x| = max x (-x) is below +∞ exactly when x is neither infinity, that is,
  when x is a real number. So under the precondition every activation, every scale and every bias is a real number.
-/
import proofs.«152385_j69956427317869_2_alg».proof.Pre_finite_inputs
import Idealize.ShloMosaic.Lib.ReduceAll
import Idealize.ShloMosaic.Lib.ValueIdx
import Idealize.ShloMosaic.PureOps.Ideal

noncomputable section

open Idealize.ShloMosaic Idealize.ShloMosaic.ValueIdx

namespace Cert.Pre_finite_inputs.Finite

open Cert.Pre_finite_inputs

variable [Cert.Pre_finite_inputs.Facts]
open Facts

/-- The scalar shape has one index. -/
instance : Subsingleton S_.Idx := ⟨fun a b => funext fun d => d.elim0⟩

/-- The word the tests compare against denotes +∞. -/
theorem inf_word : Ideal.ofBits .f32 0x7F800000#32 = (⊤ : EReal) := by simp [Ideal.ofBits, Ideal.ieee]

/-- An extended real whose absolute value tests below +∞ is a real number. -/
theorem real_of_test (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  rw [inf_word] at h
  have hlt : max x (-x) < (⊤ : EReal) := by
    by_contra hn
    have : FloatOps.cmpf (F := Ideal) (φ := .f32) .olt (FloatOps.hostAbsf (F := Ideal) (φ := .f32) x) (⊤ : EReal) = 0#1 := by
      show BitVec.ofBool (decide (max x (-x) < (⊤ : EReal))) = 0#1
      rw [decide_eq_false hn]; rfl
    rw [this] at h
    exact absurd h (by decide)
  induction x using EReal.rec with
  | bot => simp at hlt
  | top => simp at hlt
  | coe r => exact ⟨r, rfl⟩

/-- Under the precondition every entry of the three float arguments is a real number. -/
theorem reals_of_pre (x : FVec Ideal S4x512x4096 .f32) (w : IVec S11008x4096 32) (sc bi : FVec Ideal S11008 .f32)
    (h : fn (F := Ideal) x w sc bi = fun _ => 1#1) :
    (∀ i, ∃ r : ℝ, x i = (r : EReal)) ∧ (∀ i, ∃ r : ℝ, sc i = (r : EReal)) ∧ (∀ i, ∃ r : ℝ, bi i = (r : EReal)) := by
  have h0 := congrFun h ix0
  dsimp only [fn] at h0
  obtain ⟨h12, h3⟩ := IntOp.andi_eq_one.1 h0
  obtain ⟨h1, h2⟩ := IntOp.andi_eq_one.1 h12
  refine ⟨fun i => real_of_test _ ?_, fun i => real_of_test _ ?_, fun i => real_of_test _ ?_⟩
  · exact Host.reduce_andi_all _ _ _ _ _ h1 i
  · exact Host.reduce_andi_all _ _ _ _ _ h2 i
  · exact Host.reduce_andi_all _ _ _ _ _ h3 i

end Cert.Pre_finite_inputs.Finite

end
-- ==== Proof.lean ====
/-
  An int8-weight linear layer, y = x · Wᵀ · diag(scale) + bias, as a tiled kernel against its jnp reference.

  The kernel contracts the activations with the raw integer weights, one 256-column tile of the output per grid point,
  and applies the per-output-channel scale once to each contracted sum before adding the bias:
      (∑ k, x (b, s, k) * w (o, k)) * scale (o) + bias (o).
  The reference dequantizes first, w (o, k) * scale (o), and contracts afterwards:
      (∑ k, x (b, s, k) * (w (o, k) * scale (o))) + bias (o).
  At the extended reals the integer-to-float conversions are exact and the change of float format is the identity, so
  the two differ only in where the scale stands, and it leaves the sum whenever the activations and the scale are real
  numbers: what the precondition (every float input finite) provides. The frames are the programs' runs with the result
  dropped; the idealization rewrote nothing, so it preserves the kernel trivially.
-/
import proofs.«152385_j69956427317869_2_alg».proof.Defs
import proofs.«152385_j69956427317869_2_alg».proof.Proof.Gen.Kernel
import proofs.«152385_j69956427317869_2_alg».proof.Proof.Gen.Kernel.Frame
import proofs.«152385_j69956427317869_2_alg».proof.Proof.Gen.KernelIdeal
import proofs.«152385_j69956427317869_2_alg».proof.Proof.Gen.KernelIdeal.Frame
import proofs.«152385_j69956427317869_2_alg».proof.Proof.Gen.ReferenceIdeal
import proofs.«152385_j69956427317869_2_alg».proof.Proof.Gen.Pre_finite_inputs
import proofs.«152385_j69956427317869_2_alg».proof.Proof.Gen.ReferenceIdeal.Run
import proofs.«152385_j69956427317869_2_alg».proof.Proof.Gen.ReferenceIdeal.Read
import proofs.«152385_j69956427317869_2_alg».proof.Proof.WholeRun
import proofs.«152385_j69956427317869_2_alg».proof.Proof.Bridge
import proofs.«152385_j69956427317869_2_alg».proof.Proof.FiniteInputs

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer's function of the arguments: the kernel by its run read tile by tile, the
    reference by its operations read at an index and the scale taken out of the sum. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨?_, (h c).2⟩)
    (Cert.ReferenceIdeal.Value.run (F := Ideal) m' ρ')
  obtain ⟨hx, hsc, -⟩ := Cert.Pre_finite_inputs.Finite.reals_of_pre _ _ _ _ (hpre c)
  rw [(h c).1, Cert.ReferenceIdeal.Read.val_main_v7_eq, (hagree c).1, (hagree c).2.1, (hagree c).2.2.1, (hagree c).2.2.2]
  exact Cert.Bridge.reference_eq _ _ _ _ hx hsc

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
